-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S128x8 : Shape := ⟨2, ![128, 8]⟩
abbrev S8 : Shape := ⟨1, ![8]⟩
abbrev S8x16 : Shape := ⟨2, ![8, 16]⟩
abbrev S16 : Shape := ⟨1, ![16]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S8x16 1) : IVec S_ 1 :=
  let main_c_5 : IVec S_ 1 := constantI S_ 1 1#1
  let main_v17 : IVec S_ 1 := (fun x v => Host.reduce IntOp.andi x v reducesTo_S8x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S200000x128 .f32) (main_arg1 : IVec S2x6400000 32) (main_arg2 : FVec F S128x8 .f32) (main_arg3 : FVec F S8 .f32) (main_arg4 : FVec F S8x16 .f32) (main_arg5 : FVec F S16 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x8 .f32 := Host.absf main_arg2
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x16 .f32 := Host.absf main_arg4
  let main_cst_4 : FVec F S_ .f32 := constant S_ .f32 0x7F800000#32
  let main_v15 : FVec F S8x16 .f32 := broadcastInDim S8x16 ![] bcast_S_S8x16 main_cst_4
  let main_v16 : IVec S8x16 1 := cmpf .olt main_v14 main_v15
  fn_part1 (F := F) main_arg5 main_v13 main_v16
-- ==== Kernel.lean ====
abbrev S200000x128 : Shape := ⟨2, ![200000, 128]⟩
abbrev S2x6400000 : Shape := ⟨2, ![2, 6400000]⟩
abbrev S128x8 : Shape := ⟨2, ![128, 8]⟩
abbrev S8 : Shape := ⟨1, ![8]⟩
abbrev S8x16 : Shape := ⟨2, ![8, 16]⟩
abbrev S16 : Shape := ⟨1, ![16]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S200000x8 : Shape := ⟨2, ![200000, 8]⟩
abbrev S20000x128 : Shape := ⟨2, ![20000, 128]⟩
abbrev S20000x8 : Shape := ⟨2, ![20000, 8]⟩
abbrev S6600000x8 : Shape := ⟨2, ![6600000, 8]⟩
abbrev S1x8 : Shape := ⟨2, ![1, 8]⟩
abbrev S200000x16 : Shape := ⟨2, ![200000, 16]⟩
abbrev S20000x16 : Shape := ⟨2, ![20000, 16]⟩
abbrev S6600000x16 : Shape := ⟨2, ![6600000, 16]⟩
abbrev S1x16 : Shape := ⟨2, ![1, 16]⟩

abbrev nBuf : Space → Nat
  | .hbm => 89
  | .vmem => 10
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x8, .f32⟩
  | .hbm, ⟨3, _⟩ => ⟨S8, .f32⟩
  | .hbm, ⟨4, _⟩ => ⟨S8x16, .f32⟩
  | .hbm, ⟨5, _⟩ => ⟨S16, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S200000, .i32⟩
  | .hbm, ⟨11, _⟩ => ⟨S6600000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S200000x8, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x8, .f32⟩
  | .hbm, ⟨56, _⟩ => ⟨S6600000x1, .f32⟩
  | .hbm, ⟨57, _⟩ => ⟨S6600000x8, .f32⟩
  | .hbm, ⟨58, _⟩ => ⟨S6600000x8, .f32⟩
  | .hbm, ⟨59, _⟩ => ⟨S_, .f32⟩
  | .hbm, ⟨60, _⟩ => ⟨S200000x8, .f32⟩
  | .hbm, ⟨61, _⟩ => ⟨S6600000x1, .i32⟩
  | .hbm, ⟨62, _⟩ => ⟨S200000x8, .f32⟩
  | .hbm, ⟨63, _⟩ => ⟨S1x8, .f32⟩
  | .hbm, ⟨64, _⟩ => ⟨S200000x8, .f32⟩
  | .hbm, ⟨65, _⟩ => ⟨S200000x8, .f32⟩
  | .hbm, ⟨66, _⟩ => ⟨S_, .f32⟩
  | .hbm, ⟨67, _⟩ => ⟨S200000x8, .f32⟩
  | .hbm, ⟨68, _⟩ => ⟨S200000x8, .f32⟩
  | .hbm, ⟨69, _⟩ => ⟨S200000x16, .f32⟩
  | .hbm, ⟨70, _⟩ => ⟨S_, .i32⟩
  | .hbm, ⟨71, _⟩ => ⟨S6600000, .i32⟩
  | .hbm, ⟨72, _⟩ => ⟨S6600000, .i1⟩
  | .hbm, ⟨73, _⟩ => ⟨S_, .i32⟩
  | .hbm, ⟨74, _⟩ => ⟨S6600000, .i32⟩
  | .hbm, ⟨75, _⟩ => ⟨S6600000, .i32⟩
  | .hbm, ⟨76, _⟩ => ⟨S6600000, .i32⟩
  | .hbm, ⟨77, _⟩ => ⟨S6600000x1, .i32⟩
  | .hbm, ⟨78, _⟩ => ⟨S6600000x16, .f32⟩
  | .hbm, ⟨79, _⟩ => ⟨S6600000x1, .f32⟩
  | .hbm, ⟨80, _⟩ => ⟨S6600000x16, .f32⟩
  | .hbm, ⟨81, _⟩ => ⟨S6600000x16, .f32⟩
  | .hbm, ⟨82, _⟩ => ⟨S_, .f32⟩
  | .hbm, ⟨83, _⟩ => ⟨S200000x16, .f32⟩
  | .hbm, ⟨84, _⟩ => ⟨S6600000x1, .i32⟩
  | .hbm, ⟨85, _⟩ => ⟨S200000x16, .f32⟩
  | .hbm, ⟨86, _⟩ => ⟨S1x16, .f32⟩
  | .hbm, ⟨87, _⟩ => ⟨S200000x16, .f32⟩
  | .hbm, ⟨88, _⟩ => ⟨S200000x16, .f32⟩
  | .local _ .vmem, ⟨0, _⟩ => ⟨S20000x128, .f32⟩
  | .local _ .vmem, ⟨1, _⟩ => ⟨S20000x128, .f32⟩
  | .local _ .vmem, ⟨2, _⟩ => ⟨S128x8, .f32⟩
  | .local _ .vmem, ⟨3, _⟩ => ⟨S20000x8, .f32⟩
  | .local _ .vmem, ⟨4, _⟩ => ⟨S20000x8, .f32⟩
  | .local _ .vmem, ⟨5, _⟩ => ⟨S20000x8, .f32⟩
  | .local _ .vmem, ⟨6, _⟩ => ⟨S20000x8, .f32⟩
  | .local _ .vmem, ⟨7, _⟩ => ⟨S8x16, .f32⟩
  | .local _ .vmem, ⟨8, _⟩ => ⟨S20000x16, .f32⟩
  | .local _ .vmem, ⟨9, _⟩ => ⟨S20000x16, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S20000x128_S20000x128_0_0 : ∀ a, (![0, 0] : Fin 2 → Nat) a + S20000x128.size a ≤ S20000x128.size a
  h_S20000x128 : 0 < S20000x128.numel
  bitsLt_bf16_f32 : FTy.bits .bf16 < FTy.bits .f32
  inb_S128x8_S128x8_0_0 : ∀ a, (![0, 0] : Fin 2 → Nat) a + S128x8.size a ≤ S128x8.size a
  h_S128x8 : 0 < S128x8.numel
  inb_S20000x8_S20000x8_0_0 : ∀ a, (![0, 0] : Fin 2 → Nat) a + S20000x8.size a ≤ S20000x8.size a
  h_S20000x8 : 0 < S20000x8.numel
  bcast_S6600000x1_S6600000x8_0_1 : S6600000x1.BroadcastsInDim S6600000x8 (![0, 1] : Fin 2 → Fin S6600000x8.rank)
  bcast_S_S200000x8 : S_.BroadcastsInDim S200000x8 (![] : Fin 0 → Fin S200000x8.rank)
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  shapeCasts_S20000x8_S20000x8 : S20000x8.ShapeCasts S20000x8
  inb_S8x16_S8x16_0_0 : ∀ a, (![0, 0] : Fin 2 → Nat) a + S8x16.size a ≤ S8x16.size a
  h_S8x16 : 0 < S8x16.numel
  inb_S20000x16_S20000x16_0_0 : ∀ a, (![0, 0] : Fin 2 → Nat) a + S20000x16.size a ≤ S20000x16.size a
  h_S20000x16 : 0 < S20000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S20000x128_S128x8_S20000x8_1_0_0_1_n_n_wf : DotDims.WF S20000x128 S128x8 S20000x8 [1] [0] [0] [1] [] []
  gather_S200000x8_S6600000x1_S6600000x8_1_0_n_n_0_1_18_wf : GatherDims.WF S200000x8 S6600000x1 S6600000x8 [1] [0] [] [0] [] 1 ![1, 8]
  scatter_S200000x8_S6600000x1_S6600000x8_1_0_0_1_wf : ScatterDims.WF S200000x8 S6600000x1 S6600000x8 [1] [0] [0] 1
  dot_S20000x8_S8x16_S20000x16_1_0_0_1_n_n_wf : DotDims.WF S20000x8 S8x16 S20000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S200000x128.size a
  hwx0_0 : ∀ i : grid0.Coords, EltTy.bits .f32 = 32 ∨ (Rect.block (s := S200000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8.size a ≤ S128x8.size a
  hwx0_1 : ∀ i : grid0.Coords, EltTy.bits .f32 = 32 ∨ (Rect.block (s := S128x8) S128x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x8.size a ≤ S200000x8.size a
  hwx0_2 : ∀ i : grid0.Coords, EltTy.bits .f32 = 32 ∨ (Rect.block (s := S200000x8) S20000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x8.size a ≤ S200000x8.size a
  hwx1_0 : ∀ i : grid1.Coords, EltTy.bits .f32 = 32 ∨ (Rect.block (s := S200000x8) S20000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x16.size a ≤ S8x16.size a
  hwx1_1 : ∀ i : grid1.Coords, EltTy.bits .f32 = 32 ∨ (Rect.block (s := S8x16) S8x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x16.size a ≤ S200000x16.size a
  hwx1_2 : ∀ i : grid1.Coords, EltTy.bits .f32 = 32 ∨ (Rect.block (s := S200000x16) S20000x16.size (cc1_transform_2 i) (hinb1_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S20000x128_S128x8_S20000x8_1_0_0_1_n_n : DotDims S20000x128 S128x8 S20000x8 where
  lhsContracting := [1]
  rhsContracting := [0]
  lhsNonContracting := [0]
  rhsNonContracting := [1]
  lhsBatch := []
  rhsBatch := []
  wf := dot_S20000x128_S128x8_S20000x8_1_0_0_1_n_n_wf
def gather_S200000x8_S6600000x1_S6600000x8_1_0_n_n_0_1_18 : GatherDims S200000x8 S6600000x1 S6600000x8 where
  offsetDims := [1]
  collapsedSliceDims := [0]
  operandBatchingDims := []
  startIndicesBatchingDims := []
  startIndexMap := [0]
  indexVectorDim := 1
  sliceSizes := ![1, 8]
  wf := gather_S200000x8_S6600000x1_S6600000x8_1_0_n_n_0_1_18_wf
def scatter_S200000x8_S6600000x1_S6600000x8_1_0_0_1 : ScatterDims S200000x8 S6600000x1 S6600000x8 where
  updateWindowDims := [1]
  insertedWindowDims := [0]
  scatterDimsToOperandDims := [0]
  indexVectorDim := 1
  wf := scatter_S200000x8_S6600000x1_S6600000x8_1_0_0_1_wf
def dot_S20000x8_S8x16_S20000x16_1_0_0_1_n_n : DotDims S20000x8 S8x16 S20000x16 where
  lhsContracting := [1]
  rhsContracting := [0]
  lhsNonContracting := [0]
  rhsNonContracting := [1]
  lhsBatch := []
  rhsBatch := []
  wf := dot_S20000x8_S8x16_S20000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S20000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S20000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S8x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S20000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S128x8 : Shape := ⟨2, ![128, 8]⟩
abbrev S8 : Shape := ⟨1, ![8]⟩
abbrev S8x16 : Shape := ⟨2, ![8, 16]⟩
abbrev S16 : Shape := ⟨1, ![16]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x8 : Shape := ⟨2, ![200000, 8]⟩
abbrev S6600000x8 : Shape := ⟨2, ![6600000, 8]⟩
abbrev S1x8 : Shape := ⟨2, ![1, 8]⟩
abbrev S200000x16 : Shape := ⟨2, ![200000, 16]⟩
abbrev S6600000x16 : Shape := ⟨2, ![6600000, 16]⟩
abbrev S1x16 : Shape := ⟨2, ![1, 16]⟩

abbrev nBuf : Space → Nat
  | .hbm => 108
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x8, .f32⟩
  | .hbm, ⟨3, _⟩ => ⟨S8, .f32⟩
  | .hbm, ⟨4, _⟩ => ⟨S8x16, .f32⟩
  | .hbm, ⟨5, _⟩ => ⟨S16, .f32⟩
  | .hbm, ⟨6, _⟩ => ⟨S200000, .i32⟩
  | .hbm, ⟨7, _⟩ => ⟨S1x6400000, .i32⟩
  | .hbm, ⟨8, _⟩ => ⟨S6400000, .i32⟩
  | .hbm, ⟨9, _⟩ => ⟨S6600000, .i32⟩
  | .hbm, ⟨10, _⟩ => ⟨S1x6400000, .i32⟩
  | .hbm, ⟨11, _⟩ => ⟨S6400000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S200000x8, .f32⟩
  | .hbm, ⟨28, _⟩ => ⟨S_, .i32⟩
  | .hbm, ⟨29, _⟩ => ⟨S6600000, .i32⟩
  | .hbm, ⟨30, _⟩ => ⟨S6600000, .i1⟩
  | .hbm, ⟨31, _⟩ => ⟨S_, .i32⟩
  | .hbm, ⟨32, _⟩ => ⟨S6600000, .i32⟩
  | .hbm, ⟨33, _⟩ => ⟨S6600000, .i32⟩
  | .hbm, ⟨34, _⟩ => ⟨S6600000, .i32⟩
  | .hbm, ⟨35, _⟩ => ⟨S6600000x1, .i32⟩
  | .hbm, ⟨36, _⟩ => ⟨S6600000, .f32⟩
  | .hbm, ⟨37, _⟩ => ⟨S_, .i32⟩
  | .hbm, ⟨38, _⟩ => ⟨S6600000, .i32⟩
  | .hbm, ⟨39, _⟩ => ⟨S6600000, .i1⟩
  | .hbm, ⟨40, _⟩ => ⟨S_, .i32⟩
  | .hbm, ⟨41, _⟩ => ⟨S6600000, .i32⟩
  | .hbm, ⟨42, _⟩ => ⟨S6600000, .i32⟩
  | .hbm, ⟨43, _⟩ => ⟨S6600000, .i32⟩
  | .hbm, ⟨44, _⟩ => ⟨S6600000x1, .i32⟩
  | .hbm, ⟨45, _⟩ => ⟨S6600000, .f32⟩
  | .hbm, ⟨46, _⟩ => ⟨S6600000, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x8, .f32⟩
  | .hbm, ⟨56, _⟩ => ⟨S6600000x1, .f32⟩
  | .hbm, ⟨57, _⟩ => ⟨S6600000x8, .f32⟩
  | .hbm, ⟨58, _⟩ => ⟨S6600000x8, .f32⟩
  | .hbm, ⟨59, _⟩ => ⟨S_, .f32⟩
  | .hbm, ⟨60, _⟩ => ⟨S200000x8, .f32⟩
  | .hbm, ⟨61, _⟩ => ⟨S6600000x1, .i32⟩
  | .hbm, ⟨62, _⟩ => ⟨S200000x8, .f32⟩
  | .hbm, ⟨63, _⟩ => ⟨S1x8, .f32⟩
  | .hbm, ⟨64, _⟩ => ⟨S200000x8, .f32⟩
  | .hbm, ⟨65, _⟩ => ⟨S200000x8, .f32⟩
  | .hbm, ⟨66, _⟩ => ⟨S_, .f32⟩
  | .hbm, ⟨67, _⟩ => ⟨S200000x8, .f32⟩
  | .hbm, ⟨68, _⟩ => ⟨S200000x8, .f32⟩
  | .hbm, ⟨69, _⟩ => ⟨S200000x16, .f32⟩
  | .hbm, ⟨70, _⟩ => ⟨S_, .i32⟩
  | .hbm, ⟨71, _⟩ => ⟨S6600000, .i32⟩
  | .hbm, ⟨72, _⟩ => ⟨S6600000, .i1⟩
  | .hbm, ⟨73, _⟩ => ⟨S_, .i32⟩
  | .hbm, ⟨74, _⟩ => ⟨S6600000, .i32⟩
  | .hbm, ⟨75, _⟩ => ⟨S6600000, .i32⟩
  | .hbm, ⟨76, _⟩ => ⟨S6600000, .i32⟩
  | .hbm, ⟨77, _⟩ => ⟨S6600000x1, .i32⟩
  | .hbm, ⟨78, _⟩ => ⟨S6600000, .f32⟩
  | .hbm, ⟨79, _⟩ => ⟨S_, .i32⟩
  | .hbm, ⟨80, _⟩ => ⟨S6600000, .i32⟩
  | .hbm, ⟨81, _⟩ => ⟨S6600000, .i1⟩
  | .hbm, ⟨82, _⟩ => ⟨S_, .i32⟩
  | .hbm, ⟨83, _⟩ => ⟨S6600000, .i32⟩
  | .hbm, ⟨84, _⟩ => ⟨S6600000, .i32⟩
  | .hbm, ⟨85, _⟩ => ⟨S6600000, .i32⟩
  | .hbm, ⟨86, _⟩ => ⟨S6600000x1, .i32⟩
  | .hbm, ⟨87, _⟩ => ⟨S6600000, .f32⟩
  | .hbm, ⟨88, _⟩ => ⟨S6600000, .f32⟩
  | .hbm, ⟨89, _⟩ => ⟨S_, .i32⟩
  | .hbm, ⟨90, _⟩ => ⟨S6600000, .i32⟩
  | .hbm, ⟨91, _⟩ => ⟨S6600000, .i1⟩
  | .hbm, ⟨92, _⟩ => ⟨S_, .i32⟩
  | .hbm, ⟨93, _⟩ => ⟨S6600000, .i32⟩
  | .hbm, ⟨94, _⟩ => ⟨S6600000, .i32⟩
  | .hbm, ⟨95, _⟩ => ⟨S6600000, .i32⟩
  | .hbm, ⟨96, _⟩ => ⟨S6600000x1, .i32⟩
  | .hbm, ⟨97, _⟩ => ⟨S6600000x16, .f32⟩
  | .hbm, ⟨98, _⟩ => ⟨S6600000x1, .f32⟩
  | .hbm, ⟨99, _⟩ => ⟨S6600000x16, .f32⟩
  | .hbm, ⟨100, _⟩ => ⟨S6600000x16, .f32⟩
  | .hbm, ⟨101, _⟩ => ⟨S_, .f32⟩
  | .hbm, ⟨102, _⟩ => ⟨S200000x16, .f32⟩
  | .hbm, ⟨103, _⟩ => ⟨S6600000x1, .i32⟩
  | .hbm, ⟨104, _⟩ => ⟨S200000x16, .f32⟩
  | .hbm, ⟨105, _⟩ => ⟨S1x16, .f32⟩
  | .hbm, ⟨106, _⟩ => ⟨S200000x16, .f32⟩
  | .hbm, ⟨107, _⟩ => ⟨S200000x16, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x8_0_1 : S6600000x1.BroadcastsInDim S6600000x8 (![0, 1] : Fin 2 → Fin S6600000x8.rank)
  bcast_S_S200000x8 : S_.BroadcastsInDim S200000x8 (![] : Fin 0 → Fin S200000x8.rank)
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  scatter_S200000_S6600000x1_S6600000_n_0_0_1_wf : ScatterDims.WF S200000 S6600000x1 S6600000 [] [0] [0] 1
  dot_S200000x128_S128x8_S200000x8_1_0_0_1_n_n_wf : DotDims.WF S200000x128 S128x8 S200000x8 [1] [0] [0] [1] [] []
  gather_S200000_S6600000x1_S6600000_n_0_n_n_0_1_1_wf : GatherDims.WF S200000 S6600000x1 S6600000 [] [0] [] [0] [] 1 ![1]
  gather_S200000x8_S6600000x1_S6600000x8_1_0_n_n_0_1_18_wf : GatherDims.WF S200000x8 S6600000x1 S6600000x8 [1] [0] [] [0] [] 1 ![1, 8]
  scatter_S200000x8_S6600000x1_S6600000x8_1_0_0_1_wf : ScatterDims.WF S200000x8 S6600000x1 S6600000x8 [1] [0] [0] 1
  dot_S200000x8_S8x16_S200000x16_1_0_0_1_n_n_wf : DotDims.WF S200000x8 S8x16 S200000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def dot_S200000x128_S128x8_S200000x8_1_0_0_1_n_n : DotDims S200000x128 S128x8 S200000x8 where
  lhsContracting := [1]
  rhsContracting := [0]
  lhsNonContracting := [0]
  rhsNonContracting := [1]
  lhsBatch := []
  rhsBatch := []
  wf := dot_S200000x128_S128x8_S200000x8_1_0_0_1_n_n_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x8_S6600000x1_S6600000x8_1_0_n_n_0_1_18 : GatherDims S200000x8 S6600000x1 S6600000x8 where
  offsetDims := [1]
  collapsedSliceDims := [0]
  operandBatchingDims := []
  startIndicesBatchingDims := []
  startIndexMap := [0]
  indexVectorDim := 1
  sliceSizes := ![1, 8]
  wf := gather_S200000x8_S6600000x1_S6600000x8_1_0_n_n_0_1_18_wf
def scatter_S200000x8_S6600000x1_S6600000x8_1_0_0_1 : ScatterDims S200000x8 S6600000x1 S6600000x8 where
  updateWindowDims := [1]
  insertedWindowDims := [0]
  scatterDimsToOperandDims := [0]
  indexVectorDim := 1
  wf := scatter_S200000x8_S6600000x1_S6600000x8_1_0_0_1_wf
def dot_S200000x8_S8x16_S200000x16_1_0_0_1_n_n : DotDims S200000x8 S8x16 S200000x16 where
  lhsContracting := [1]
  rhsContracting := [0]
  lhsNonContracting := [0]
  rhsNonContracting := [1]
  lhsBatch := []
  rhsBatch := []
  wf := dot_S200000x8_S8x16_S200000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf

class Facts : Prop extends Facts₀ where

variable [Facts]
-- ==== Proof.KernelRun.lean ====
/-
  The idealized kernel's run with its result named.

  @main is eight segments: three stretches of host operations (the edge bookkeeping: sources and destinations with the
  self loops appended, the degrees by a scatter-add of ones, their inverse square roots, the per-edge normalisation), the
  first row-tiled matrix product, two stretches (the first layer's gather, scaling, scatter-add, bias and relu), the second
  matrix product, and a last stretch (the second layer's aggregation and bias). The generated frame folds the device's
  buffer contents through these segments: `W8 m ρ c` is what every unscoped buffer holds at the return. Here the same
  run is read once more, keeping, beside the six argument arrays, the result buffer at that last valuation; the
  modules after this one compute `W8` at the result buffer.
-/
import proofs.«120119_j53197464928416_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem for a program of several regions gets its implicit arguments by unifying its conclusion with this
-- statement, and that unification has to unfold plain definitions inside a metavariable's type
set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Named

end
-- ==== Proof.Layers.lean ====
/-
  The graph convolution's two layers as functions of the edge list, a projected feature table and a bias — the reference
  program's own operations, grouped.

  The edge list e : i32[2, 6400000] gives E = 6400000 edges; the N = 200000 self loops are appended, so there are
  E' = 6600000 (source, destination) pairs (src, dst). deg(n) is the number of pairs whose destination is n (a
  scatter-add of ones), dis(n) = deg(n)^(-1/2) where deg(n) > 0 and 0 elsewhere, and the pair's weight is
  norm = dis[src] · dis[dst] (indices below zero are first shifted by N, as array indexing does: srcCol, dstCol are
  the shifted indices as [E', 1] columns). A layer gathers the rows h[src] of a projected feature table, scales row j
  by norm(j), adds the scaled rows into their destination rows (scatter-add into zeros) and adds the bias; the first
  layer ends with max(·, 0). The reference's result is the second layer of (the first layer of x·W1) · W2: refResult_eq.
-/
import proofs.«120119_j53197464928416_2_alg».proof.Proof.RefRun

set_option maxRecDepth 8192

noncomputable section

namespace Cert.ReferenceIdeal.Layers

open Cert.ReferenceIdeal Cert.ReferenceIdeal.Gen Idealize.ShloMosaic Idealize.ShloMosaic.TcCoe Idealize.SL.Sem Idealize.ShloMosaic.StableHlo

variable {F : FTy → Type} [FloatOps F]

/-- The sources: row 0 of the edge list, then the self loops 0 … N-1. -/
def src (e : (⟨S2x6400000, .i32⟩ : BufTy).Contents (Elt F)) : (⟨S6600000, .i32⟩ : BufTy).Contents (Elt F) :=
  concatenate S6600000 0 [⟨S6400000, (shapeCast _ (extractStridedSlice S1x6400000 ![0, 0] e slices_S2x6400000_S1x6400000_0_0) shapeCasts_S1x6400000_S6400000)⟩, ⟨S200000, (iotaInDim S200000 32 0)⟩] concatenates_S6400000_S200000_S6600000_d0

/-- The destinations: row 1 of the edge list, then the self loops 0 … N-1. -/
def dst (e : (⟨S2x6400000, .i32⟩ : BufTy).Contents (Elt F)) : (⟨S6600000, .i32⟩ : BufTy).Contents (Elt F) :=
  concatenate S6600000 0 [⟨S6400000, (shapeCast _ (extractStridedSlice S1x6400000 ![1, 0] e slices_S2x6400000_S1x6400000_1_0) shapeCasts_S1x6400000_S6400000)⟩, ⟨S200000, (iotaInDim S200000 32 0)⟩] concatenates_S6400000_S200000_S6600000_d0

/-- The sources as a gather's index column: a negative index is shifted by N first. -/
def srcCol (e : (⟨S2x6400000, .i32⟩ : BufTy).Contents (Elt F)) : (⟨S6600000x1, .i32⟩ : BufTy).Contents (Elt F) :=
  broadcastInDim S6600000x1 ![0] bcast_S6600000_S6600000x1_0 (select (cmpi .slt (src (F := F) e) (broadcastInDim S6600000 ![] bcast_S_S6600000 (constantI S_ 32 0#32))) (addi (src (F := F) e) (broadcastInDim S6600000 ![] bcast_S_S6600000 (constantI S_ 32 200000#32))) (src (F := F) e))

/-- The destinations as a gather's index column: a negative index is shifted by N first. -/
def dstCol (e : (⟨S2x6400000, .i32⟩ : BufTy).Contents (Elt F)) : (⟨S6600000x1, .i32⟩ : BufTy).Contents (Elt F) :=
  broadcastInDim S6600000x1 ![0] bcast_S6600000_S6600000x1_0 (select (cmpi .slt (dst (F := F) e) (broadcastInDim S6600000 ![] bcast_S_S6600000 (constantI S_ 32 0#32))) (addi (dst (F := F) e) (broadcastInDim S6600000 ![] bcast_S_S6600000 (constantI S_ 32 200000#32))) (dst (F := F) e))

/-- The degrees: ones added into their destination nodes. -/
def deg (e : (⟨S2x6400000, .i32⟩ : BufTy).Contents (Elt F)) : (⟨S200000, .f32⟩ : BufTy).Contents (Elt F) :=
  Host.scatterAdd scatter_S200000_S6600000x1_S6600000_n_0_0_1 (broadcastInDim S200000 ![] bcast_S_S200000 (constant S_ .f32 0x00000000#32)) (broadcastInDim S6600000x1 ![0] bcast_S6600000_S6600000x1_0 (dst (F := F) e)) (broadcastInDim S6600000 ![] bcast_S_S6600000 (constant S_ .f32 0x3F800000#32))

/-- deg^(-1/2) where the degree is positive, 0 elsewhere. -/
def dis (e : (⟨S2x6400000, .i32⟩ : BufTy).Contents (Elt F)) : (⟨S200000, .f32⟩ : BufTy).Contents (Elt F) :=
  select (cmpf (F := F) .ogt (deg (F := F) e) (broadcastInDim S200000 ![] bcast_S_S200000 (constant S_ .f32 0x00000000#32))) (Host.rsqrt (deg (F := F) e)) (broadcastInDim S200000 ![] bcast_S_S200000 (id (constant S_ .f32 0x00000000#32)))

/-- The pairs' weights dis[src] · dis[dst]. -/
def norm (e : (⟨S2x6400000, .i32⟩ : BufTy).Contents (Elt F)) : (⟨S6600000, .f32⟩ : BufTy).Contents (Elt F) :=
  mulf (Host.gather gather_S200000_S6600000x1_S6600000_n_0_n_n_0_1_1 (dis (F := F) e) (srcCol (F := F) e)) (Host.gather gather_S200000_S6600000x1_S6600000_n_0_n_n_0_1_1 (dis (F := F) e) (dstCol (F := F) e))

/-- The first layer after its projection h = x · W1: relu (Σ over the pairs into j's row of norm · h[src] + b). -/
def layer1 (h : (⟨S200000x8, .f32⟩ : BufTy).Contents (Elt F)) (e : (⟨S2x6400000, .i32⟩ : BufTy).Contents (Elt F)) (b : (⟨S8, .f32⟩ : BufTy).Contents (Elt F)) : (⟨S200000x8, .f32⟩ : BufTy).Contents (Elt F) :=
  maximumf (addf (Host.scatterAdd scatter_S200000x8_S6600000x1_S6600000x8_1_0_0_1 (broadcastInDim S200000x8 ![] bcast_S_S200000x8 (constant S_ .f32 0x00000000#32)) (broadcastInDim S6600000x1 ![0] bcast_S6600000_S6600000x1_0 (dst (F := F) e)) (mulf (Host.gather gather_S200000x8_S6600000x1_S6600000x8_1_0_n_n_0_1_18 h (srcCol (F := F) e)) (broadcastInDim S6600000x8 ![0, 1] bcast_S6600000x1_S6600000x8_0_1 (broadcastInDim S6600000x1 ![0] bcast_S6600000_S6600000x1_0 (norm (F := F) e))))) (broadcastInDim S200000x8 ![0, 1] bcast_S1x8_S200000x8_0_1 (broadcastInDim S1x8 ![1] bcast_S8_S1x8_1 b))) (broadcastInDim S200000x8 ![] bcast_S_S200000x8 (constant S_ .f32 0x00000000#32))

/-- The second layer after its projection h = h1 · W2: Σ over the pairs into j's row of norm · h[src], plus b. -/
def layer2 (h : (⟨S200000x16, .f32⟩ : BufTy).Contents (Elt F)) (e : (⟨S2x6400000, .i32⟩ : BufTy).Contents (Elt F)) (b : (⟨S16, .f32⟩ : BufTy).Contents (Elt F)) : (⟨S200000x16, .f32⟩ : BufTy).Contents (Elt F) :=
  addf (Host.scatterAdd scatter_S200000x16_S6600000x1_S6600000x16_1_0_0_1 (broadcastInDim S200000x16 ![] bcast_S_S200000x16 (constant S_ .f32 0x00000000#32)) (broadcastInDim S6600000x1 ![0] bcast_S6600000_S6600000x1_0 (dst (F := F) e)) (mulf (Host.gather gather_S200000x16_S6600000x1_S6600000x16_1_0_n_n_0_1_116 h (srcCol (F := F) e)) (broadcastInDim S6600000x16 ![0, 1] bcast_S6600000x1_S6600000x16_0_1 (broadcastInDim S6600000x1 ![0] bcast_S6600000_S6600000x1_0 (norm (F := F) e))))) (broadcastInDim S200000x16 ![0, 1] bcast_S1x16_S200000x16_0_1 (broadcastInDim S1x16 ![1] bcast_S16_S1x16_1 b))

/-- The reference's result is the second layer of the product of (the first layer of x · W1) with W2: the run's composed
    term, with its repeated subterms named. -/
theorem refResult_eq (m : (ℓ : Loc nD τ sig) → Buf (Elt F) ℓ) (c : Dev nD) :
    Cert.ReferenceIdeal.ValueP.res_main_v79 m c
      = layer2 (F := F) (Host.dotGeneral dot_S200000x8_S8x16_S200000x16_1_0_0_1_n_n none
          (layer1 (F := F) (Host.dotGeneral dot_S200000x128_S128x8_S200000x8_1_0_0_1_n_n none (m ((c.tc : Thread nD τ).loc main_arg0)) (m ((c.tc : Thread nD τ).loc main_arg2)))
            (m ((c.tc : Thread nD τ).loc main_arg1)) (m ((c.tc : Thread nD τ).loc main_arg3)))
          (m ((c.tc : Thread nD τ).loc main_arg4)))
        (m ((c.tc : Thread nD τ).loc main_arg1)) (m ((c.tc : Thread nD τ).loc main_arg5)) := by
  unfold Cert.ReferenceIdeal.ValueP.res_main_v79 layer2 layer1 norm dis deg dstCol srcCol dst src
  rfl

end Cert.ReferenceIdeal.Layers

end
-- ==== Proof.HostSide.lean ====
/-
  The host stretches of the idealized kernel's @main, read at the buffers the result depends on.

  The kernel's @main does on the host exactly what the reference does around its two matrix products. Before the first
  product it builds, from the edge list alone, the sources and destinations (with the self loops), and the pairs'
  weights dis[src] · dis[dst]; neither product touches them. Between the products it runs the first layer on the first
  product's result; after the second product it runs the second layer on that product's result. Each stretch is read
  here at one buffer, as the layers' functions (the reference's own operations, grouped) of what the stretch found:
  the edge list, the biases, and a product's result array. A buffer a stretch or a region does not write keeps its
  contents, which carries the bookkeeping arrays and the arguments from one boundary to the next.
-/
import proofs.«120119_j53197464928416_2_alg».proof.Proof.Gen.KernelIdeal.Frame
import proofs.«120119_j53197464928416_2_alg».proof.Proof.Layers
import Idealize.ShloMosaic.Lib.StableHlo.Run

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Before the first product: the bookkeeping arrays and the arguments as the first region finds them -/

/-- The sources, as the first region finds them. -/
theorem entry1_src (c : Dev nD) : W3 m ρ c (Proc.devRef .tc main_v5) = Cert.ReferenceIdeal.Layers.src (F := F) (m ((c : Thread nD τ).loc main_arg1)) := by
  show StableHlo.after hostOps0_2 (StableHlo.after hostOps0_1 (StableHlo.after hostOps0 (W0 m ρ c))) (Proc.devRef .tc main_v5) = _
  after_results_simp <;> rfl

/-- The destinations. -/
theorem entry1_dst (c : Dev nD) : W3 m ρ c (Proc.devRef .tc main_v6) = Cert.ReferenceIdeal.Layers.dst (F := F) (m ((c : Thread nD τ).loc main_arg1)) := by
  show StableHlo.after hostOps0_2 (StableHlo.after hostOps0_1 (StableHlo.after hostOps0 (W0 m ρ c))) (Proc.devRef .tc main_v6) = _
  after_results_simp <;> rfl

/-- The pairs' weights. -/
theorem entry1_norm (c : Dev nD) : W3 m ρ c (Proc.devRef .tc main_v29) = Cert.ReferenceIdeal.Layers.norm (F := F) (m ((c : Thread nD τ).loc main_arg1)) := by
  show StableHlo.after hostOps0_2 (StableHlo.after hostOps0_1 (StableHlo.after hostOps0 (W0 m ρ c))) (Proc.devRef .tc main_v29) = _
  after_results_simp <;> rfl

/-- Argument 0 is as launched. -/
theorem entry1_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl

/-- Argument 1 is as launched. -/
theorem entry1_arg1 (c : Dev nD) : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  after_results_simp <;> rfl

/-- Argument 2 is as launched. -/
theorem entry1_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl

/-- Argument 3 is as launched. -/
theorem entry1_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl

/-- Argument 4 is as launched. -/
theorem entry1_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl

/-- Argument 5 is as launched. -/
theorem entry1_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

/-! ## After the first product: its result array is what the pipeline leaves, every other buffer is as entered -/

theorem exit1_src (c : Dev nD) : W4 m ρ c (Proc.devRef .tc main_v5) = Cert.ReferenceIdeal.Layers.src (F := F) (m ((c : Thread nD τ).loc main_arg1)) :=
  (W4_of_ne m ρ c main_v5 (by decide)).trans (entry1_src m ρ c)
theorem exit1_dst (c : Dev nD) : W4 m ρ c (Proc.devRef .tc main_v6) = Cert.ReferenceIdeal.Layers.dst (F := F) (m ((c : Thread nD τ).loc main_arg1)) :=
  (W4_of_ne m ρ c main_v6 (by decide)).trans (entry1_dst m ρ c)
theorem exit1_norm (c : Dev nD) : W4 m ρ c (Proc.devRef .tc main_v29) = Cert.ReferenceIdeal.Layers.norm (F := F) (m ((c : Thread nD τ).loc main_arg1)) :=
  (W4_of_ne m ρ c main_v29 (by decide)).trans (entry1_norm m ρ c)
theorem exit1_arg1 (c : Dev nD) : W4 m ρ c (Proc.devRef .tc main_arg1) = (m ((c : Thread nD τ).loc main_arg1)) :=
  (W4_of_ne m ρ c main_arg1 (by decide)).trans (entry1_arg1 m ρ c)
theorem exit1_arg3 (c : Dev nD) : W4 m ρ c (Proc.devRef .tc main_arg3) = (m ((c : Thread nD τ).loc main_arg3)) :=
  (W4_of_ne m ρ c main_arg3 (by decide)).trans (entry1_arg3 m ρ c)
theorem exit1_arg4 (c : Dev nD) : W4 m ρ c (Proc.devRef .tc main_arg4) = (m ((c : Thread nD τ).loc main_arg4)) :=
  (W4_of_ne m ρ c main_arg4 (by decide)).trans (entry1_arg4 m ρ c)
theorem exit1_arg5 (c : Dev nD) : W4 m ρ c (Proc.devRef .tc main_arg5) = (m ((c : Thread nD τ).loc main_arg5)) :=
  (W4_of_ne m ρ c main_arg5 (by decide)).trans (entry1_arg5 m ρ c)

/-! ## Between the products: the first layer -/

/-- The second region's left operand is the first layer of the first product's result. -/
theorem entry2_hidden (c : Dev nD) : W6 m ρ c (Proc.devRef .tc main_v47)
    = Cert.ReferenceIdeal.Layers.layer1 (F := F) (W4 m ρ c (Proc.devRef .tc main_v30)) (m ((c : Thread nD τ).loc main_arg1)) (m ((c : Thread nD τ).loc main_arg3)) := by
  show StableHlo.after hostOps1_1 (StableHlo.after hostOps1 (W4 m ρ c)) (Proc.devRef .tc main_v47) = _
  after_results_simp
  rw [exit1_src m ρ c, exit1_dst m ρ c, exit1_norm m ρ c, exit1_arg3 m ρ c]
  rfl

theorem entry2_src (c : Dev nD) : W6 m ρ c (Proc.devRef .tc main_v5) = Cert.ReferenceIdeal.Layers.src (F := F) (m ((c : Thread nD τ).loc main_arg1)) := by
  refine Eq.trans ?_ (exit1_src m ρ c)
  show StableHlo.after hostOps1_1 (StableHlo.after hostOps1 (W4 m ρ c)) (Proc.devRef .tc main_v5) = _
  after_results_simp <;> rfl
theorem entry2_dst (c : Dev nD) : W6 m ρ c (Proc.devRef .tc main_v6) = Cert.ReferenceIdeal.Layers.dst (F := F) (m ((c : Thread nD τ).loc main_arg1)) := by
  refine Eq.trans ?_ (exit1_dst m ρ c)
  show StableHlo.after hostOps1_1 (StableHlo.after hostOps1 (W4 m ρ c)) (Proc.devRef .tc main_v6) = _
  after_results_simp <;> rfl
theorem entry2_norm (c : Dev nD) : W6 m ρ c (Proc.devRef .tc main_v29) = Cert.ReferenceIdeal.Layers.norm (F := F) (m ((c : Thread nD τ).loc main_arg1)) := by
  refine Eq.trans ?_ (exit1_norm m ρ c)
  show StableHlo.after hostOps1_1 (StableHlo.after hostOps1 (W4 m ρ c)) (Proc.devRef .tc main_v29) = _
  after_results_simp <;> rfl
theorem entry2_arg1 (c : Dev nD) : W6 m ρ c (Proc.devRef .tc main_arg1) = (m ((c : Thread nD τ).loc main_arg1)) := by
  refine Eq.trans ?_ (exit1_arg1 m ρ c)
  show StableHlo.after hostOps1_1 (StableHlo.after hostOps1 (W4 m ρ c)) (Proc.devRef .tc main_arg1) = _
  after_results_simp <;> rfl
theorem entry2_arg4 (c : Dev nD) : W6 m ρ c (Proc.devRef .tc main_arg4) = (m ((c : Thread nD τ).loc main_arg4)) := by
  refine Eq.trans ?_ (exit1_arg4 m ρ c)
  show StableHlo.after hostOps1_1 (StableHlo.after hostOps1 (W4 m ρ c)) (Proc.devRef .tc main_arg4) = _
  after_results_simp <;> rfl
theorem entry2_arg5 (c : Dev nD) : W6 m ρ c (Proc.devRef .tc main_arg5) = (m ((c : Thread nD τ).loc main_arg5)) := by
  refine Eq.trans ?_ (exit1_arg5 m ρ c)
  show StableHlo.after hostOps1_1 (StableHlo.after hostOps1 (W4 m ρ c)) (Proc.devRef .tc main_arg5) = _
  after_results_simp <;> rfl

/-! ## After the second product -/

theorem exit2_src (c : Dev nD) : W7 m ρ c (Proc.devRef .tc main_v5) = Cert.ReferenceIdeal.Layers.src (F := F) (m ((c : Thread nD τ).loc main_arg1)) :=
  (W7_of_ne m ρ c main_v5 (by decide)).trans (entry2_src m ρ c)
theorem exit2_dst (c : Dev nD) : W7 m ρ c (Proc.devRef .tc main_v6) = Cert.ReferenceIdeal.Layers.dst (F := F) (m ((c : Thread nD τ).loc main_arg1)) :=
  (W7_of_ne m ρ c main_v6 (by decide)).trans (entry2_dst m ρ c)
theorem exit2_norm (c : Dev nD) : W7 m ρ c (Proc.devRef .tc main_v29) = Cert.ReferenceIdeal.Layers.norm (F := F) (m ((c : Thread nD τ).loc main_arg1)) :=
  (W7_of_ne m ρ c main_v29 (by decide)).trans (entry2_norm m ρ c)
theorem exit2_arg5 (c : Dev nD) : W7 m ρ c (Proc.devRef .tc main_arg5) = (m ((c : Thread nD τ).loc main_arg5)) :=
  (W7_of_ne m ρ c main_arg5 (by decide)).trans (entry2_arg5 m ρ c)

/-- THE RESULT at the return is the second layer of the second product's result. -/
theorem result_eq (c : Dev nD) : W8 m ρ c (Proc.devRef .tc main_v64)
    = Cert.ReferenceIdeal.Layers.layer2 (F := F) (W7 m ρ c (Proc.devRef .tc main_v48)) (m ((c : Thread nD τ).loc main_arg1)) (m ((c : Thread nD τ).loc main_arg5)) := by
  show StableHlo.after hostOps2 (W7 m ρ c) (Proc.devRef .tc main_v64) = _
  after_results_simp
  rw [exit2_src m ρ c, exit2_dst m ρ c, exit2_norm m ρ c, exit2_arg5 m ρ c]
  rfl

end Cert.KernelIdeal.HostSide

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.FirstProduct.lean ====
/-
  The first row-tiled matrix product, as one function of the arrays the region finds.

  The launch has ten grid points. Point t stages rows 20000·t … 20000·t + 19999 of the left operand (all 128
  columns), the whole [128, 8] right operand, and rows 20000·t … 20000·t + 19999 of the result. The body rounds both
  staged blocks to bf16 — at the extended reals the identity — and multiplies them on the matrix unit into a zero
  accumulator, so entry (p, q) of the block it stores is the sum over k of block(p, k) · weights(k, q). A block's
  entry (p, k) is the array's entry (20000·t + p, k), so what point t writes back is block t of ONE function of the
  two arrays, the rows of the left operand against the columns of the right one (rowsCols). The ten blocks tile
  the result (row r lies in block r / 20000), so after the run the result array is that function everywhere.
  Everything is stated at any contents V of the device's buffers at the region's entry.
-/
import proofs.«120119_j53197464928416_2_alg».proof.Proof.Gen.KernelIdeal.Frame
import proofs.«120119_j53197464928416_2_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.FirstProduct

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The rows of `x` against the columns of `w`: entry (r, q) is the sum over k of x (r, k) · w (k, q). -/
def rowsCols (x : S200000x128.Idx → EReal) (w : S128x8.Idx → EReal) : S200000x8.Idx → EReal :=
  fun i => ∑ k : Fin 128, x (ix2 (⟨(i 0).val, (i 0).isLt⟩ : Fin 200000) k) * w (ix2 k (⟨(i 1).val, (i 1).isLt⟩ : Fin 8))

/-- The body's stored value at entry (p, q) of its block: the matrix unit's product into a zero accumulator is the
    plain sum of products, and rounding to bf16 is the identity on the extended reals. -/
theorem pay_ix2 (x0 : Vec Ideal S20000x128 .f32) (x1 : Vec Ideal S128x8 .f32) (p : Fin 20000) (q : Fin 8) :
    k0_pay1 (F := Ideal) x0 x1 (ix2 p q) = ∑ k : Fin 128, x0 (ix2 p k) * x1 (ix2 k q) := by
  unfold k0_pay1
  exact Cert.PlainDot.matmul_zero_apply (M := 20000) (K := 128) (N := 8) dot_S20000x128_S128x8_S20000x8_1_0_0_1_n_n rfl rfl rfl rfl rfl rfl none _ _ p q

/-- The same at any index of the block. -/
theorem pay_apply (x0 : Vec Ideal S20000x128 .f32) (x1 : Vec Ideal S128x8 .f32) (j : S20000x8.Idx) :
    k0_pay1 (F := Ideal) x0 x1 j
      = ∑ k : Fin 128, x0 (ix2 (⟨(j 0).val, (j 0).isLt⟩ : Fin 20000) k) * x1 (ix2 k (⟨(j 1).val, (j 1).isLt⟩ : Fin 8)) := by
  obtain ⟨p, q, rfl⟩ : ∃ (p : Fin 20000) (q : Fin 8), j = ix2 p q := ⟨j 0, j 1, eq_ix2 j⟩
  exact pay_ix2 x0 x1 p q

/-- Two sums over k agree when the left block's entry (p, k) is the left array's entry (r, k) and the right block's
    entry (k, q') is the right array's entry (k, q). -/
theorem block_sum (X : S200000x128.Idx → EReal) (Wt : S128x8.Idx → EReal)
    (e0 : S20000x128.Idx → S200000x128.Idx) (e1 : S128x8.Idx → S128x8.Idx)
    (r : Fin 200000) (q : Fin 8) (p : Fin 20000) (q' : Fin 8)
    (h0 : ∀ k : Fin 128, e0 (ix2 p k) = ix2 r k) (h1 : ∀ k : Fin 128, e1 (ix2 k q') = ix2 k q) :
    ∑ k : Fin 128, X (e0 (ix2 p k)) * Wt (e1 (ix2 k q')) = ∑ k : Fin 128, X (ix2 r k) * Wt (ix2 k q) :=
  Finset.sum_congr rfl fun k _ => by rw [h0, h1]

theorem hz : (![0, 0] : Fin 2 → Nat) = fun _ => 0 := funext fun a => by fin_cases a <;> rfl

/-- The printed index maps over the grid: the left operand's block and the result's block move together down the
    rows, one block per point; every other block index is 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks of the result is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- WHAT POINT t WRITES BACK is block t of the rows of the left array against the columns of the right one. -/
theorem flushed_eq (c : Dev nD) (t : Fin cfg0.N) :
    (dat0 V c).flushed 2 t = ((cfg0.win 2).blk t).view.read (Elt Ideal) (rowsCols (V c main_arg0) (V c main_arg2)) := by
  show (cfg0.win 2).cut (grid0.coords t) ((dat0 V c).after 2 t) = _
  rw [after0_2]
  unfold out0_2
  rw [View.canon_unit_zero hz]
  simp only [View.ld_unit_zero (S := S20000x128) hz, View.ld_unit_zero (S := S128x8) hz]
  obtain ⟨e0, e1, e2, e3, e4, e5⟩ := idx_facts t
  funext j
  have hp : (j 0).val < 20000 := (j 0).isLt
  have hq : (j 1).val < 8 := (j 1).isLt
  have h0 : ∀ k : Fin 128, ((cfg0.win 0).blk t).view.emb (ix2 (⟨(j 0).val, hp⟩ : Fin 20000) k)
      = ix2 (⟨((((cfg0.win 2).blk t).view.emb j) 0).val, ((((cfg0.win 2).blk t).view.emb j) 0).isLt⟩ : Fin 200000) k := by
    intro k
    have hk : k.val < 128 := k.isLt
    funext a; apply Fin.ext
    match a with
    | ⟨0, _⟩ => show win0_0.index t (0 : Fin 2) * 20000 + 1 * (j 0).val = win0_2.index t (0 : Fin 2) * 20000 + 1 * (j 0).val; omega
    | ⟨1, _⟩ => show win0_0.index t (1 : Fin 2) * 128 + 1 * k.val = k.val; omega
  have h1 : ∀ k : Fin 128, ((cfg0.win 1).blk t).view.emb (ix2 k (⟨(j 1).val, hq⟩ : Fin 8))
      = ix2 k (⟨((((cfg0.win 2).blk t).view.emb j) 1).val, ((((cfg0.win 2).blk t).view.emb j) 1).isLt⟩ : Fin 8) := by
    intro k
    have hk : k.val < 128 := k.isLt
    funext a; apply Fin.ext
    match a with
    | ⟨0, _⟩ => show win0_1.index t (0 : Fin 2) * 128 + 1 * k.val = k.val; omega
    | ⟨1, _⟩ => show win0_1.index t (1 : Fin 2) * 8 + 1 * (j 1).val = win0_2.index t (1 : Fin 2) * 8 + 1 * (j 1).val; omega
  refine (pay_apply (iblk0 V c 0 t) (iblk0 V c 1 t) j).trans ?_
  exact block_sum (V c main_arg0) (V c main_arg2) ((cfg0.win 0).blk t).view.emb ((cfg0.win 1).blk t).view.emb
    (⟨((((cfg0.win 2).blk t).view.emb j) 0).val, ((((cfg0.win 2).blk t).view.emb j) 0).isLt⟩ : Fin 200000) (⟨((((cfg0.win 2).blk t).view.emb j) 1).val, ((((cfg0.win 2).blk t).view.emb j) 1).isLt⟩ : Fin 8)
    (⟨(j 0).val, hp⟩ : Fin 20000) (⟨(j 1).val, hq⟩ : Fin 8) h0 h1

/-- An index of the result is in point t's block iff each coordinate is in the block's range on its axis. -/
theorem mem_blk (t : Fin cfg0.N) (i : S200000x8.Idx) :
    i ∈ ((cfg0.win 2).blk t).view.set ↔ ∀ a : Fin 2, win0_2.index t a * S20000x8.size a ≤ (i a).val ∧ (i a).val < win0_2.index t a * S20000x8.size a + S20000x8.size a := by
  show i ∈ ((View.whole main_v30).slice (win0_2.rect t)).set ↔ _
  rw [View.set_slice_whole, Rect.mem_set_unit]
  exact Iff.rfl

/-- The ten blocks tile the result: row r is in block r / 20000. -/
theorem cover (i : S200000x8.Idx) : ∃ t : Fin cfg0.N, (cfg0.win 2).flush t = true ∧ i ∈ ((cfg0.win 2).blk t).view.set := by
  have hi0 : (i 0).val < 200000 := (i 0).isLt
  have hi1 : (i 1).val < 8 := (i 1).isLt
  obtain ⟨t, ht⟩ := idx_onto ⟨(i 0).val / 20000, by omega⟩
  have q0 : win0_2.index t (0 : Fin 2) = (i 0).val / 20000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 20000 ≤ (i 0).val ∧ (i 0).val < win0_2.index t (0 : Fin 2) * 20000 + 20000; omega
  | ⟨1, _⟩ => show win0_2.index t (1 : Fin 2) * 8 ≤ (i 1).val ∧ (i 1).val < win0_2.index t (1 : Fin 2) * 8 + 8; omega

/-- THE RESULT ARRAY after the region: the rows of the left array against the columns of the right one. -/
theorem array_eq (c : Dev nD) : (dat0 V c).arrAt 2 cfg0.N = rowsCols (V c main_arg0) (V c main_arg2) :=
  (dat0 V c).arrAt_eq_of_cover 2 (rowsCols (V c main_arg0) (V c main_arg2)) (fun t _ => flushed_eq V c t) cover

end Cert.KernelIdeal.FirstProduct

end
-- ==== Proof.SecondProduct.lean ====
/-
  The second row-tiled matrix product, as one function of the arrays the region finds.

  The launch has ten grid points. Point t stages rows 20000·t … 20000·t + 19999 of the left operand (all 8
  columns), the whole [8, 16] right operand, and rows 20000·t … 20000·t + 19999 of the result. The body (after a shape cast
  of the left block to its own shape, the identity) rounds both staged blocks to bf16 — at the extended reals the
  identity — and multiplies them on the matrix unit into a zero
  accumulator, so entry (p, q) of the block it stores is the sum over k of block(p, k) · weights(k, q). A block's
  entry (p, k) is the array's entry (20000·t + p, k), so what point t writes back is block t of ONE function of the
  two arrays, the rows of the left operand against the columns of the right one (rowsCols). The ten blocks tile
  the result (row r lies in block r / 20000), so after the run the result array is that function everywhere.
  Everything is stated at any contents V of the device's buffers at the region's entry.
-/
import proofs.«120119_j53197464928416_2_alg».proof.Proof.Gen.KernelIdeal.Frame
import proofs.«120119_j53197464928416_2_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.SecondProduct

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The rows of `x` against the columns of `w`: entry (r, q) is the sum over k of x (r, k) · w (k, q). -/
def rowsCols (x : S200000x8.Idx → EReal) (w : S8x16.Idx → EReal) : S200000x16.Idx → EReal :=
  fun i => ∑ k : Fin 8, x (ix2 (⟨(i 0).val, (i 0).isLt⟩ : Fin 200000) k) * w (ix2 k (⟨(i 1).val, (i 1).isLt⟩ : Fin 16))

/-- The body's stored value at entry (p, q) of its block: the matrix unit's product into a zero accumulator is the
    plain sum of products, and rounding to bf16 is the identity on the extended reals. -/
theorem pay_ix2 (x0 : Vec Ideal S20000x8 .f32) (x1 : Vec Ideal S8x16 .f32) (p : Fin 20000) (q : Fin 16) :
    k1_pay1 (F := Ideal) x0 x1 (ix2 p q) = ∑ k : Fin 8, x0 (ix2 p k) * x1 (ix2 k q) := by
  unfold k1_pay1
  rw [shapeCast_self]
  exact Cert.PlainDot.matmul_zero_apply (M := 20000) (K := 8) (N := 16) dot_S20000x8_S8x16_S20000x16_1_0_0_1_n_n rfl rfl rfl rfl rfl rfl none _ _ p q

/-- The same at any index of the block. -/
theorem pay_apply (x0 : Vec Ideal S20000x8 .f32) (x1 : Vec Ideal S8x16 .f32) (j : S20000x16.Idx) :
    k1_pay1 (F := Ideal) x0 x1 j
      = ∑ k : Fin 8, x0 (ix2 (⟨(j 0).val, (j 0).isLt⟩ : Fin 20000) k) * x1 (ix2 k (⟨(j 1).val, (j 1).isLt⟩ : Fin 16)) := by
  obtain ⟨p, q, rfl⟩ : ∃ (p : Fin 20000) (q : Fin 16), j = ix2 p q := ⟨j 0, j 1, eq_ix2 j⟩
  exact pay_ix2 x0 x1 p q

/-- Two sums over k agree when the left block's entry (p, k) is the left array's entry (r, k) and the right block's
    entry (k, q') is the right array's entry (k, q). -/
theorem block_sum (X : S200000x8.Idx → EReal) (Wt : S8x16.Idx → EReal)
    (e0 : S20000x8.Idx → S200000x8.Idx) (e1 : S8x16.Idx → S8x16.Idx)
    (r : Fin 200000) (q : Fin 16) (p : Fin 20000) (q' : Fin 16)
    (h0 : ∀ k : Fin 8, e0 (ix2 p k) = ix2 r k) (h1 : ∀ k : Fin 8, e1 (ix2 k q') = ix2 k q) :
    ∑ k : Fin 8, X (e0 (ix2 p k)) * Wt (e1 (ix2 k q')) = ∑ k : Fin 8, X (ix2 r k) * Wt (ix2 k q) :=
  Finset.sum_congr rfl fun k _ => by rw [h0, h1]

theorem hz : (![0, 0] : Fin 2 → Nat) = fun _ => 0 := funext fun a => by fin_cases a <;> rfl

/-- The printed index maps over the grid: the left operand's block and the result's block move together down the
    rows, one block per point; every other block index is 0. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks of the result is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- WHAT POINT t WRITES BACK is block t of the rows of the left array against the columns of the right one. -/
theorem flushed_eq (c : Dev nD) (t : Fin cfg1.N) :
    (dat1 V c).flushed 2 t = ((cfg1.win 2).blk t).view.read (Elt Ideal) (rowsCols (V c main_v47) (V c main_arg4)) := by
  show (cfg1.win 2).cut (grid1.coords t) ((dat1 V c).after 2 t) = _
  rw [after1_2]
  unfold out1_2
  rw [View.canon_unit_zero hz]
  simp only [View.ld_unit_zero (S := S20000x8) hz, View.ld_unit_zero (S := S8x16) hz]
  obtain ⟨e0, e1, e2, e3, e4, e5⟩ := idx_facts t
  funext j
  have hp : (j 0).val < 20000 := (j 0).isLt
  have hq : (j 1).val < 16 := (j 1).isLt
  have h0 : ∀ k : Fin 8, ((cfg1.win 0).blk t).view.emb (ix2 (⟨(j 0).val, hp⟩ : Fin 20000) k)
      = ix2 (⟨((((cfg1.win 2).blk t).view.emb j) 0).val, ((((cfg1.win 2).blk t).view.emb j) 0).isLt⟩ : Fin 200000) k := by
    intro k
    have hk : k.val < 8 := k.isLt
    funext a; apply Fin.ext
    match a with
    | ⟨0, _⟩ => show win1_0.index t (0 : Fin 2) * 20000 + 1 * (j 0).val = win1_2.index t (0 : Fin 2) * 20000 + 1 * (j 0).val; omega
    | ⟨1, _⟩ => show win1_0.index t (1 : Fin 2) * 8 + 1 * k.val = k.val; omega
  have h1 : ∀ k : Fin 8, ((cfg1.win 1).blk t).view.emb (ix2 k (⟨(j 1).val, hq⟩ : Fin 16))
      = ix2 k (⟨((((cfg1.win 2).blk t).view.emb j) 1).val, ((((cfg1.win 2).blk t).view.emb j) 1).isLt⟩ : Fin 16) := by
    intro k
    have hk : k.val < 8 := k.isLt
    funext a; apply Fin.ext
    match a with
    | ⟨0, _⟩ => show win1_1.index t (0 : Fin 2) * 8 + 1 * k.val = k.val; omega
    | ⟨1, _⟩ => show win1_1.index t (1 : Fin 2) * 16 + 1 * (j 1).val = win1_2.index t (1 : Fin 2) * 16 + 1 * (j 1).val; omega
  refine (pay_apply (iblk1 V c 0 t) (iblk1 V c 1 t) j).trans ?_
  exact block_sum (V c main_v47) (V c main_arg4) ((cfg1.win 0).blk t).view.emb ((cfg1.win 1).blk t).view.emb
    (⟨((((cfg1.win 2).blk t).view.emb j) 0).val, ((((cfg1.win 2).blk t).view.emb j) 0).isLt⟩ : Fin 200000) (⟨((((cfg1.win 2).blk t).view.emb j) 1).val, ((((cfg1.win 2).blk t).view.emb j) 1).isLt⟩ : Fin 16)
    (⟨(j 0).val, hp⟩ : Fin 20000) (⟨(j 1).val, hq⟩ : Fin 16) h0 h1

/-- An index of the result is in point t's block iff each coordinate is in the block's range on its axis. -/
theorem mem_blk (t : Fin cfg1.N) (i : S200000x16.Idx) :
    i ∈ ((cfg1.win 2).blk t).view.set ↔ ∀ a : Fin 2, win1_2.index t a * S20000x16.size a ≤ (i a).val ∧ (i a).val < win1_2.index t a * S20000x16.size a + S20000x16.size a := by
  show i ∈ ((View.whole main_v48).slice (win1_2.rect t)).set ↔ _
  rw [View.set_slice_whole, Rect.mem_set_unit]
  exact Iff.rfl

/-- The ten blocks tile the result: row r is in block r / 20000. -/
theorem cover (i : S200000x16.Idx) : ∃ t : Fin cfg1.N, (cfg1.win 2).flush t = true ∧ i ∈ ((cfg1.win 2).blk t).view.set := by
  have hi0 : (i 0).val < 200000 := (i 0).isLt
  have hi1 : (i 1).val < 16 := (i 1).isLt
  obtain ⟨t, ht⟩ := idx_onto ⟨(i 0).val / 20000, by omega⟩
  have q0 : win1_2.index t (0 : Fin 2) = (i 0).val / 20000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 20000 ≤ (i 0).val ∧ (i 0).val < win1_2.index t (0 : Fin 2) * 20000 + 20000; omega
  | ⟨1, _⟩ => show win1_2.index t (1 : Fin 2) * 16 ≤ (i 1).val ∧ (i 1).val < win1_2.index t (1 : Fin 2) * 16 + 16; omega

/-- THE RESULT ARRAY after the region: the rows of the left array against the columns of the right one. -/
theorem array_eq (c : Dev nD) : (dat1 V c).arrAt 2 cfg1.N = rowsCols (V c main_v47) (V c main_arg4) :=
  (dat1 V c).arrAt_eq_of_cover 2 (rowsCols (V c main_v47) (V c main_arg4)) (fun t _ => flushed_eq V c t) cover

end Cert.KernelIdeal.SecondProduct

end
-- ==== Proof.Bridge.lean ====
/-
  The idealized kernel's result is the reference's function of the arguments.

  A region's result array is the rows of its left operand against the columns of its right one (the two product
  modules); at the extended reals that sum over k of x (r, k) · w (k, q) is also what the host's dot_general of the
  two arrays is at (r, q). So the kernel's first product is the reference's x · W1, its left operand for the second
  product is the first layer of that, its second product is the reference's h1 · W2, and its result is the second
  layer of that: the same composition of the same functions of the same six arrays as the reference's result.
-/
import proofs.«120119_j53197464928416_2_alg».proof.Proof.HostSide
import proofs.«120119_j53197464928416_2_alg».proof.Proof.FirstProduct
import proofs.«120119_j53197464928416_2_alg».proof.Proof.SecondProduct
import proofs.«120119_j53197464928416_2_alg».proof.Proof.KernelRun

set_option maxRecDepth 16384

noncomputable section

open scoped BigOperators

namespace Cert.Bridge

open Idealize.ShloMosaic Idealize.ShloMosaic.TcCoe Idealize.SL.Sem Idealize.ShloMosaic.ValueIdx

/-- The rows of x against the columns of w are the host's dot_general of x and w ([200000, 128] by [128, 8]). -/
theorem rowsCols1_eq (x : FVec Ideal Cert.ReferenceIdeal.S200000x128 .f32) (w : FVec Ideal Cert.ReferenceIdeal.S128x8 .f32) :
    Cert.KernelIdeal.FirstProduct.rowsCols x w = Host.dotGeneral (F := Ideal) (φ₁ := .f32) (φ₂ := .f32) Cert.ReferenceIdeal.dot_S200000x128_S128x8_S200000x8_1_0_0_1_n_n none x w := by
  funext i
  obtain ⟨p, q, rfl⟩ : ∃ (p : Fin 200000) (q : Fin 8), i = ix2 p q := ⟨i 0, i 1, eq_ix2 i⟩
  show _ = FloatOps.dotGeneral Cert.ReferenceIdeal.dot_S200000x128_S128x8_S200000x8_1_0_0_1_n_n none _ x w (ix2 p q)
  exact (Cert.PlainDot.dotGeneral_apply (M := 200000) (K := 128) (N := 8) Cert.ReferenceIdeal.dot_S200000x128_S128x8_S200000x8_1_0_0_1_n_n rfl rfl rfl rfl rfl rfl none _ x w p q).symm

/-- The same for [200000, 8] by [8, 16]. -/
theorem rowsCols2_eq (x : FVec Ideal Cert.ReferenceIdeal.S200000x8 .f32) (w : FVec Ideal Cert.ReferenceIdeal.S8x16 .f32) :
    Cert.KernelIdeal.SecondProduct.rowsCols x w = Host.dotGeneral (F := Ideal) (φ₁ := .f32) (φ₂ := .f32) Cert.ReferenceIdeal.dot_S200000x8_S8x16_S200000x16_1_0_0_1_n_n none x w := by
  funext i
  obtain ⟨p, q, rfl⟩ : ∃ (p : Fin 200000) (q : Fin 16), i = ix2 p q := ⟨i 0, i 1, eq_ix2 i⟩
  show _ = FloatOps.dotGeneral Cert.ReferenceIdeal.dot_S200000x8_S8x16_S200000x16_1_0_0_1_n_n none _ x w (ix2 p q)
  exact (Cert.PlainDot.dotGeneral_apply (M := 200000) (K := 8) (N := 16) Cert.ReferenceIdeal.dot_S200000x8_S8x16_S200000x16_1_0_0_1_n_n rfl rfl rfl rfl rfl rfl none _ x w p q).symm

section
open Cert.KernelIdeal Cert.KernelIdeal.Gen

variable (m : (ℓ : Loc nD τ sig) → Buf (Elt Ideal) ℓ) (ρ : Dev nD → PrngReg)

/-- The first region's result array is the reference's x · W1. -/
theorem first_product (c : Dev nD) : W4 m ρ c (Proc.devRef .tc main_v30)
    = Host.dotGeneral (F := Ideal) (φ₁ := .f32) (φ₂ := .f32) Cert.ReferenceIdeal.dot_S200000x128_S128x8_S200000x8_1_0_0_1_n_n none (m ((c : Thread nD τ).loc main_arg0)) (m ((c : Thread nD τ).loc main_arg2)) :=
  calc W4 m ρ c (Proc.devRef .tc main_v30)
    _ = (dat0 (V3 m ρ) c).arrAt 2 cfg0.N := W4_arr m ρ c 2
    _ = FirstProduct.rowsCols (V3 m ρ c main_arg0) (V3 m ρ c main_arg2) := FirstProduct.array_eq (V3 m ρ) c
    _ = FirstProduct.rowsCols (m ((c : Thread nD τ).loc main_arg0)) (m ((c : Thread nD τ).loc main_arg2)) := by
          rw [show V3 m ρ c main_arg0 = _ from HostSide.entry1_arg0 m ρ c, show V3 m ρ c main_arg2 = _ from HostSide.entry1_arg2 m ρ c]
    _ = _ := rowsCols1_eq _ _

/-- The second region's result array is the reference's h1 · W2, h1 the first layer of x · W1. -/
theorem second_product (c : Dev nD) : W7 m ρ c (Proc.devRef .tc main_v48)
    = Host.dotGeneral (F := Ideal) (φ₁ := .f32) (φ₂ := .f32) Cert.ReferenceIdeal.dot_S200000x8_S8x16_S200000x16_1_0_0_1_n_n none
        (Cert.ReferenceIdeal.Layers.layer1 (F := Ideal) (Host.dotGeneral (F := Ideal) (φ₁ := .f32) (φ₂ := .f32) Cert.ReferenceIdeal.dot_S200000x128_S128x8_S200000x8_1_0_0_1_n_n none (m ((c : Thread nD τ).loc main_arg0)) (m ((c : Thread nD τ).loc main_arg2)))
          (m ((c : Thread nD τ).loc main_arg1)) (m ((c : Thread nD τ).loc main_arg3)))
        (m ((c : Thread nD τ).loc main_arg4)) :=
  calc W7 m ρ c (Proc.devRef .tc main_v48)
    _ = (dat1 (V6 m ρ) c).arrAt 2 cfg1.N := W7_arr m ρ c 2
    _ = SecondProduct.rowsCols (V6 m ρ c main_v47) (V6 m ρ c main_arg4) := SecondProduct.array_eq (V6 m ρ) c
    _ = SecondProduct.rowsCols (Cert.ReferenceIdeal.Layers.layer1 (F := Ideal) (W4 m ρ c (Proc.devRef .tc main_v30)) (m ((c : Thread nD τ).loc main_arg1)) (m ((c : Thread nD τ).loc main_arg3)))
          (m ((c : Thread nD τ).loc main_arg4)) := by
          rw [show V6 m ρ c main_v47 = _ from HostSide.entry2_hidden m ρ c, show V6 m ρ c main_arg4 = _ from HostSide.entry2_arg4 m ρ c]
    _ = _ := by rw [first_product m ρ c]; exact rowsCols2_eq _ _

/-- THE KERNEL'S RESULT at the return: the second layer of the second product. -/
theorem kernel_result (c : Dev nD) : W8 m ρ c (Proc.devRef .tc main_v64)
    = Cert.ReferenceIdeal.Layers.layer2 (F := Ideal) (Host.dotGeneral (F := Ideal) (φ₁ := .f32) (φ₂ := .f32) Cert.ReferenceIdeal.dot_S200000x8_S8x16_S200000x16_1_0_0_1_n_n none
        (Cert.ReferenceIdeal.Layers.layer1 (F := Ideal) (Host.dotGeneral (F := Ideal) (φ₁ := .f32) (φ₂ := .f32) Cert.ReferenceIdeal.dot_S200000x128_S128x8_S200000x8_1_0_0_1_n_n none (m ((c : Thread nD τ).loc main_arg0)) (m ((c : Thread nD τ).loc main_arg2)))
          (m ((c : Thread nD τ).loc main_arg1)) (m ((c : Thread nD τ).loc main_arg3)))
        (m ((c : Thread nD τ).loc main_arg4)))
      (m ((c : Thread nD τ).loc main_arg1)) (m ((c : Thread nD τ).loc main_arg5)) :=
  (HostSide.result_eq m ρ c).trans (by rw [second_product m ρ c])

end

end Cert.Bridge

end
-- ==== Proof.lean ====
/-
  A two-layer graph convolution (GCN) on N = 200000 nodes, F_in = 128 features, 8 hidden and 16 output channels,
  E = 6400000 edges plus the N self loops: the kernel against its jnp reference, at the extended reals.

  Both programs compute, from x : [N, 128], the edge list, W1 : [128, 8], b1, W2 : [8, 16], b2:
      deg(n) = the number of (edge or self-loop) pairs with destination n,    dis = deg^(-1/2) where deg > 0, else 0,
      norm(j) = dis[src j] · dis[dst j],
      h1 = relu (Σ over the pairs j into each row of norm(j) · (x · W1)[src j] + b1),
      out =      Σ over the pairs j into each row of norm(j) · (h1 · W2)[src j] + b2,
  with the same host operations (gathers, scatter-adds, broadcasts) in the same order. They differ in the two matrix
  products only: the reference takes a dot_general of the whole arrays, the kernel launches a row-tiled matrix product
  (ten blocks of 20000 rows; each block's operands rounded to bf16, multiplied on the matrix unit into a zero
  accumulator). At the extended reals rounding is the identity and both products are, at (r, q), the sum over k of
  lhs (r, k) · rhs (k, q); the ten blocks tile the result. So the two results are one function of the six arrays —
  no algebraic law beyond that reading is used, and the precondition (finite inputs) is never opened.

  The modules: KernelRun (the kernel's run with the result buffer named at the last boundary's contents), FirstProduct
  and SecondProduct (a region's result array as rows against columns), Layers (the reference's operations grouped into
  the two layers, and the reference's result as their composition), HostSide (the kernel's host stretches read as the
  same layers), Bridge (rows against columns is dot_general; the kernel's result), RefRun (the reference's run).
  The idealization rewrote nothing, so the kernel's idealization is the printed program read at the extended reals.
-/
import proofs.«120119_j53197464928416_2_alg».proof.Defs
import proofs.«120119_j53197464928416_2_alg».proof.Proof.Gen.Kernel
import proofs.«120119_j53197464928416_2_alg».proof.Proof.Gen.Kernel.Skeleton
import proofs.«120119_j53197464928416_2_alg».proof.Proof.Gen.Kernel.Launch
import proofs.«120119_j53197464928416_2_alg».proof.Proof.Gen.Kernel.Points
import proofs.«120119_j53197464928416_2_alg».proof.Proof.Gen.Kernel.Frame
import proofs.«120119_j53197464928416_2_alg».proof.Proof.Gen.KernelIdeal
import proofs.«120119_j53197464928416_2_alg».proof.Proof.Gen.KernelIdeal.Skeleton
import proofs.«120119_j53197464928416_2_alg».proof.Proof.Gen.KernelIdeal.Launch
import proofs.«120119_j53197464928416_2_alg».proof.Proof.Gen.KernelIdeal.Points
import proofs.«120119_j53197464928416_2_alg».proof.Proof.Gen.KernelIdeal.Frame
import proofs.«120119_j53197464928416_2_alg».proof.Proof.Gen.ReferenceIdeal
import proofs.«120119_j53197464928416_2_alg».proof.Proof.Gen.Pre_finite_inputs
import proofs.«120119_j53197464928416_2_alg».proof.Proof.RefRun
import proofs.«120119_j53197464928416_2_alg».proof.Proof.KernelRun
import proofs.«120119_j53197464928416_2_alg».proof.Proof.Bridge
import Idealize.ShloMosaic.Adequacy
import Idealize.ShloMosaic.Init

noncomputable section

namespace Cert.Proof

open Idealize.ShloMosaic Idealize.ShloMosaic.TcCoe Idealize.SL.Sem

/-- The printed kernel runs and leaves its arguments unchanged (the generated frame). -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the six arguments the two idealized programs end with the same result: the kernel's
    is the two layers around its two products (Bridge.kernel_result), the reference's is the same composition
    (Layers.refResult_eq), of arguments that agree. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.Named.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  rw [Cert.ReferenceIdeal.Layers.refResult_eq, h0, h1, h2, h3, h4, h5]
  exact (Cert.Bridge.kernel_result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
